-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S1024 : Shape := ⟨1, ![1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16x1024x1024 .f32) (main_arg1 : FVec F S16x1024x1024 .f32) (main_arg2 : FVec F S1024x1024 .f32) (main_arg3 : FVec F S1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16x1024x1024 : Shape := ⟨3, ![16, 1024, 1024]⟩
abbrev S1024x1024 : Shape := ⟨2, ![1024, 1024]⟩
abbrev S1024 : Shape := ⟨1, ![1024]⟩
abbrev S1x256x1024 : Shape := ⟨3, ![1, 256, 1024]⟩
abbrev S1x1024x1024 : Shape := ⟨3, ![1, 1024, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S1024, .f32⟩
  | .hbm, ⟨4, _⟩ => ⟨S16x1024x1024, .bf16⟩
  | .hbm, ⟨5, _⟩ => ⟨S16x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1024, .f32⟩
  | .local _ .vmem, ⟨8, _⟩ => ⟨S1x256x1024, .f32⟩
  | .local _ .vmem, ⟨9, _⟩ => ⟨S1x256x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  shapeCasts_S256x1024_S1x256x1024 : S256x1024.ShapeCasts S1x256x1024
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x1024x1024.size a
  hwx0_0 : ∀ i : grid0.Coords, EltTy.bits .f32 = 32 ∨ (Rect.block (s := S16x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x1024x1024.size a
  hwx0_2 : ∀ i : grid0.Coords, EltTy.bits .bf16 = 32 ∨ (Rect.block (s := S16x1024x1024) S1x1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S16x1024x1024.size a
  hwx0_5 : ∀ i : grid0.Coords, EltTy.bits .f32 = 32 ∨ (Rect.block (s := S16x1024x1024) S1x256x1024.size (cc0_transform_5 i) (hinb0_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 24
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S1024, .f32⟩
  | .hbm, ⟨4, _⟩ => ⟨S16x1024x1024, .f32⟩
  | .hbm, ⟨5, _⟩ => ⟨S1x1x1024, .f32⟩
  | .hbm, ⟨6, _⟩ => ⟨S16x1024x1024, .f32⟩
  | .hbm, ⟨7, _⟩ => ⟨S16x1024x1024, .f32⟩
  | .hbm, ⟨8, _⟩ => ⟨S16x1024x1024, .f32⟩
  | .hbm, ⟨9, _⟩ => ⟨S_, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024x1, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | .hbm, ⟨18, _⟩ => ⟨S_, .f32⟩
  | .hbm, ⟨19, _⟩ => ⟨S16x1024, .f32⟩
  | .hbm, ⟨20, _⟩ => ⟨S16x1024x1, .f32⟩
  | .hbm, ⟨21, _⟩ => ⟨S16x1024x1024, .f32⟩
  | .hbm, ⟨22, _⟩ => ⟨S16x1024x1024, .f32⟩
  | .hbm, ⟨23, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  dot_S16x1024x1024_S1024x1024_S16x1024x1024_2_1_01_0_n_n_wf : DotDims.WF S16x1024x1024 S1024x1024 S16x1024x1024 [2] [1] [0, 1] [0] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.RowSpec.lean ====
/-
  Bilinear cross-attention, one query row at a time, over the extended reals.

  A query row `q` (1024 features) is first sent through a linear layer: `projRow q W β e = (∑ d, q d · W e d) + β e`.
  Its logit against key `l` is the inner product of the projected row with the key's features,
  `scoreRow … l = ∑ d, projRow … d · K l d`.  The softmax over the 1024 keys is taken in the stable form: the row's
  largest logit `peak` (the fold of `max` from -∞) is subtracted before exponentiating, `weightRow … l =
  exp (scoreRow … l - peak …)`; the weights are divided by their sum `massRow`; and the result is the weighted sum of the
  value rows, `outRow … d = ∑ l, attnRow … l · V l d`.

  Nothing here depends on how the rows are tiled or in which order a sum or a maximum is taken: sums are `Finset` sums
  and the maximum is a `Finset` fold of a commutative, associative operation.  `attend` is the whole [16, 1024, 1024]
  result: batch `b`, query row `t`, feature `d` — with the keys and the values both the batch's local features.
-/
import Idealize.ShloMosaic.PureOps.Ideal
import Idealize.ShloMosaic.Lib.ValueIdx

noncomputable section

namespace Cert.Attn

open Idealize.ShloMosaic Idealize.ShloMosaic.ValueIdx

/-- The linear layer applied to one query row: entry `e` of `q · Wᵀ + β`. -/
def projRow (q : Fin 1024 → EReal) (W : Fin 1024 → Fin 1024 → EReal) (β : Fin 1024 → EReal) (e : Fin 1024) : EReal :=
  (∑ d : Fin 1024, q d * W e d) + β e

/-- The logit of the projected query row against key `l`. -/
def scoreRow (q : Fin 1024 → EReal) (W : Fin 1024 → Fin 1024 → EReal) (β : Fin 1024 → EReal)
    (K : Fin 1024 → Fin 1024 → EReal) (l : Fin 1024) : EReal :=
  ∑ d : Fin 1024, projRow q W β d * K l d

/-- The row's largest logit: the fold of `max` over the keys, from -∞. -/
def peak (q : Fin 1024 → EReal) (W : Fin 1024 → Fin 1024 → EReal) (β : Fin 1024 → EReal)
    (K : Fin 1024 → Fin 1024 → EReal) : EReal :=
  (Finset.univ : Finset (Fin 1024)).fold max (Ideal.ofBits .f32 0xFF800000#32) (scoreRow q W β K)

/-- The unnormalised softmax weight of key `l`. -/
def weightRow (q : Fin 1024 → EReal) (W : Fin 1024 → Fin 1024 → EReal) (β : Fin 1024 → EReal)
    (K : Fin 1024 → Fin 1024 → EReal) (l : Fin 1024) : EReal :=
  Ideal.exp (scoreRow q W β K l - peak q W β K)

/-- The sum of the row's weights. -/
def massRow (q : Fin 1024 → EReal) (W : Fin 1024 → Fin 1024 → EReal) (β : Fin 1024 → EReal)
    (K : Fin 1024 → Fin 1024 → EReal) : EReal :=
  ∑ l : Fin 1024, weightRow q W β K l

/-- The softmax weight of key `l`. -/
def attnRow (q : Fin 1024 → EReal) (W : Fin 1024 → Fin 1024 → EReal) (β : Fin 1024 → EReal)
    (K : Fin 1024 → Fin 1024 → EReal) (l : Fin 1024) : EReal :=
  Ideal.div (weightRow q W β K l) (massRow q W β K)

/-- Entry `d` of the attended row: the value rows weighted by the softmax. -/
def outRow (q : Fin 1024 → EReal) (W : Fin 1024 → Fin 1024 → EReal) (β : Fin 1024 → EReal)
    (K V : Fin 1024 → Fin 1024 → EReal) (d : Fin 1024) : EReal :=
  ∑ l : Fin 1024, attnRow q W β K l * V l d

/-- Row (b, t) of a rank-three array whose last axis has the 1024 features. -/
abbrev rowOf {n0 n1 : Nat} (x : (⟨3, ![n0, n1, 1024]⟩ : Shape).Idx → EReal) (b : Fin n0) (t : Fin n1) : Fin 1024 → EReal :=
  fun d => x (ix3 b t d)

/-- Slab `b` of a rank-three array of 1024 rows of 1024 features, as a matrix. -/
abbrev slabOf {n0 : Nat} (y : (⟨3, ![n0, 1024, 1024]⟩ : Shape).Idx → EReal) (b : Fin n0) : Fin 1024 → Fin 1024 → EReal :=
  fun l d => y (ix3 b l d)

/-- A [1024, 1024] array as a matrix. -/
abbrev matOf (W : (⟨2, ![1024, 1024]⟩ : Shape).Idx → EReal) : Fin 1024 → Fin 1024 → EReal := fun e d => W (ix2 e d)

/-- A [1024] array as a vector. -/
abbrev vecOf (β : (⟨1, ![1024]⟩ : Shape).Idx → EReal) : Fin 1024 → EReal := fun e => β (ix1 e)

/-- The whole result: at (b, t, d), row `t` of batch `b`'s text attends over batch `b`'s local features. -/
def attend (x y : (⟨3, ![16, 1024, 1024]⟩ : Shape).Idx → EReal) (W : (⟨2, ![1024, 1024]⟩ : Shape).Idx → EReal)
    (β : (⟨1, ![1024]⟩ : Shape).Idx → EReal) : (⟨3, ![16, 1024, 1024]⟩ : Shape).Idx → EReal :=
  fun i => outRow (rowOf x (i 0) (i 1)) (matOf W) (vecOf β) (slabOf y (i 0)) (slabOf y (i 0)) (i 2)

/-- `attend` at explicit coordinates. -/
theorem attend_ix3 (x y : (⟨3, ![16, 1024, 1024]⟩ : Shape).Idx → EReal) (W : (⟨2, ![1024, 1024]⟩ : Shape).Idx → EReal)
    (β : (⟨1, ![1024]⟩ : Shape).Idx → EReal) (b : Fin 16) (t d : Fin 1024) :
    attend x y W β (ix3 b t d) = outRow (rowOf x b t) (matOf W) (vecOf β) (slabOf y b) (slabOf y b) d := rfl

end Cert.Attn

end
-- ==== Proof.LibRowMax.lean ====
/-
  A row's maximum over the extended reals, on both sides of a softmax.

  A kernel takes the maximum of each row of an [a, b] array lane-wise (a multi-reduction with a maximum body over the
  last axis, from -∞); a host program takes it by a reduce with a maximum body over the last axis of an [n0, n1, n2]
  array, from its initial value, and jnp then takes the maximum with -∞ once more.  Over the extended reals `max` is
  commutative and associative, so each is the fold of `max` over the row's entries in any order, and -∞ is its identity.
-/
import Idealize.ShloMosaic.Lib.ValueIdx
import Idealize.ShloMosaic.PureOps.Reduce
import Idealize.ShloMosaic.PureOps.Ideal.Laws

namespace Cert.RowMax

open Idealize.ShloMosaic Idealize.ShloMosaic.ValueIdx

/-- -∞ (the f32 pattern 0xFF800000) is below every extended real: the maximum with it changes nothing. -/
theorem max_negInf (a : EReal) : max (Ideal.ofBits .f32 0xFF800000#32) a = a := by
  simp [Ideal.ofBits, Ideal.ieee]

/-- Over the extended reals, the maximum over the last axis of an [a, b] array, read at row r, is the fold of `max`
    from the accumulator's value over the row's b entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  have hf : (src ∘ h.lift (ix1 r)) = fun k : Fin b => src (ix2 r k) := funext fun (k : Fin b) => congrArg src (by
    funext c
    apply Fin.ext
    match c with
    | ⟨0, _⟩ => rfl
    | ⟨1, _⟩ => rfl)
  exact congrArg (fun f => Finset.fold max (Ideal.ofBits φ acc) f (Finset.univ : Finset (Fin b))) hf

/-- Over the extended reals, the host's reduce with a maximum body over the last axis of an [n0, n1, n2] array, read at
    (p, q), is the fold of `max` from the initial value over the n2 entries at (p, q, ·). -/
theorem hostRowMax_apply {n0 n1 n2 : ℕ} {φ : FTy} {u : Shape} (x : FVec Ideal ⟨3, ![n0, n1, n2]⟩ φ) (init : u.Idx → Ideal φ)
    (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  have hf : (x ∘ h.lift (ix2 p q)) = fun k : Fin n2 => x (ix3 p q k) := funext fun (k : Fin n2) => congrArg x (by
    funext c
    apply Fin.ext
    match c with
    | ⟨0, _⟩ => rfl
    | ⟨1, _⟩ => rfl
    | ⟨2, _⟩ => rfl)
  exact congrArg (fun f => Finset.fold max (init (Shape.Idx.first hu)) f (Finset.univ : Finset (Fin n2))) hf

end Cert.RowMax
-- ==== Proof.RefValue.lean ====
/-
  The reference computes `attend`.

  The reference program is jnp's einsum · add · einsum · softmax · einsum, one host operation at a time.  Read at explicit
  coordinates (b, t, ·), each stage is the matching stage of the row specification for query row (b, t): the first
  `dot_general` plus the broadcast bias is `projRow`; the batched `dot_general` against the local features is `scoreRow`;
  the `reduce` with a maximum body, from -∞ — and then once more the maximum with -∞, which changes nothing — is
  `peak`; the exponential of the difference is `weightRow`; the sum from zero is `massRow`; the quotient is `attnRow`; and
  the last batched `dot_general` is `outRow`.  A maximum over an axis is read as a fold over that axis's coordinates
  because `max` on the extended reals is commutative and associative.
-/
import proofs.«139368_j42391327212017_2_alg».proof.Proof.Gen.ReferenceIdeal.Read
import proofs.«139368_j42391327212017_2_alg».proof.Proof.RowSpec
import proofs.«139368_j42391327212017_2_alg».proof.Proof.LibRowMax

noncomputable section

namespace Cert.Attn.Ref

open Cert.ReferenceIdeal Cert.ReferenceIdeal.Gen Cert.ReferenceIdeal.Read Idealize.ShloMosaic Idealize.ShloMosaic.ValueIdx
open Cert.Attn

variable (x0 x1 : (⟨S16x1024x1024, .f32⟩ : BufTy).Contents (Elt Ideal)) (x2 : (⟨S1024x1024, .f32⟩ : BufTy).Contents (Elt Ideal))
  (x3 : (⟨S1024, .f32⟩ : BufTy).Contents (Elt Ideal))

/-- The projected text plus bias, at (b, t, e). -/
theorem proj_apply (b : Fin 16) (t e : Fin 1024) :
    val_main_v3 (F := Ideal) x0 x2 x3 (ix3 b t e) = projRow (rowOf x0 b t) (matOf x2) (vecOf x3) e := by
  rw [val_main_v3_apply, val_main_v0_apply, val_main_v2_apply, val_main_v1_apply]
  have e0 : ∀ k, lidx_main_v0 (ix3 b t e) k = ix3 b t k := fun k => funext fun a => Fin.ext (by
    match a with | ⟨0, _⟩ => rfl | ⟨1, _⟩ => rfl | ⟨2, _⟩ => rfl)
  have e1 : ∀ k, ridx_main_v0 (ix3 b t e) k = ix2 e k := fun k => funext fun a => Fin.ext (by
    match a with | ⟨0, _⟩ => rfl | ⟨1, _⟩ => rfl)
  have e2 : idx_main_v1 (idx_main_v2 (ix3 b t e)) = ix1 e := funext fun a => Fin.ext (by
    match a with | ⟨0, _⟩ => rfl)
  simp only [e0, e1, e2]
  rfl

/-- The logits, at (b, t, l). -/
theorem score_apply (b : Fin 16) (t l : Fin 1024) :
    val_main_v4 (F := Ideal) x0 x1 x2 x3 (ix3 b t l)
      = scoreRow (rowOf x0 b t) (matOf x2) (vecOf x3) (slabOf x1 b) l := by
  rw [val_main_v4_apply]
  unfold scoreRow
  refine Finset.sum_congr rfl fun k _ => ?_
  have e0 : lidx_main_v4 (ix3 b t l) k = ix3 b t k := funext fun a => Fin.ext (by
    match a with | ⟨0, _⟩ => rfl | ⟨1, _⟩ => rfl | ⟨2, _⟩ => rfl)
  have e1 : ridx_main_v4 (ix3 b t l) k = ix3 b l k := funext fun a => Fin.ext (by
    match a with | ⟨0, _⟩ => rfl | ⟨1, _⟩ => rfl | ⟨2, _⟩ => rfl)
  rw [e0, e1, proj_apply]

/-- The row maximum, at (b, t): the host's reduce over the key axis is the fold of `max` over the keys. -/
theorem peak_apply (b : Fin 16) (t : Fin 1024) :
    val_main_v7 (F := Ideal) x0 x1 x2 x3 (ix2 b t)
      = peak (rowOf x0 b t) (matOf x2) (vecOf x3) (slabOf x1 b) := by
  have hR : S16x1024x1024.Reduces [2] S16x1024 := by decide
  have hf : (fun k : Fin 1024 => val_main_v4 (F := Ideal) x0 x1 x2 x3 (ix3 b t k))
      = scoreRow (rowOf x0 b t) (matOf x2) (vecOf x3) (slabOf x1 b) := funext fun k => score_apply x0 x1 x2 x3 b t k
  rw [val_main_v7_apply, val_main_v6_apply, val_main_cst_0_apply]
  unfold val_main_v5
  refine (congrArg (FloatOps.maximumf (FloatOps.ofBits (F := Ideal) .f32 0xFF800000#32))
    (Cert.RowMax.hostRowMax_apply (val_main_v4 (F := Ideal) x0 x1 x2 x3) (val_main_cst (F := Ideal))
      reducesTo_S16x1024x1024_S16x1024_d2 hR h_S_ b t)).trans ?_
  rw [hf]
  exact Cert.RowMax.max_negInf _

/-- The unnormalised weights, at (b, t, l). -/
theorem weight_apply (b : Fin 16) (t l : Fin 1024) :
    val_main_v11 (F := Ideal) x0 x1 x2 x3 (ix3 b t l)
      = weightRow (rowOf x0 b t) (matOf x2) (vecOf x3) (slabOf x1 b) l := by
  rw [val_main_v11_apply, val_main_v10_apply, val_main_v9_apply, val_main_v8_apply]
  have e : idx_main_v8 (idx_main_v9 (ix3 b t l)) = ix2 b t := funext fun a => Fin.ext (by
    match a with | ⟨0, _⟩ => rfl | ⟨1, _⟩ => rfl)
  rw [e, peak_apply, score_apply]
  rfl

/-- The sum of a row's weights, at (b, t). -/
theorem mass_apply (b : Fin 16) (t : Fin 1024) :
    val_main_v12 (F := Ideal) x0 x1 x2 x3 (ix2 b t)
      = massRow (rowOf x0 b t) (matOf x2) (vecOf x3) (slabOf x1 b) := by
  rw [val_main_v12_apply, val_main_cst_1_apply]
  have e : ∀ k, idx_main_v12 (ix2 b t) k = ix3 b t k := fun k => funext fun a => Fin.ext (by
    match a with | ⟨0, _⟩ => rfl | ⟨1, _⟩ => rfl | ⟨2, _⟩ => rfl)
  simp only [e, weight_apply]
  show Ideal.ofBits .f32 0x00000000#32 + _ = _
  rw [Ideal.ofBits_zero_f32, zero_add]
  rfl

/-- The softmax, at (b, t, l). -/
theorem attn_apply (b : Fin 16) (t l : Fin 1024) :
    val_main_v15 (F := Ideal) x0 x1 x2 x3 (ix3 b t l)
      = attnRow (rowOf x0 b t) (matOf x2) (vecOf x3) (slabOf x1 b) l := by
  rw [val_main_v15_apply, val_main_v14_apply, val_main_v13_apply]
  have e : idx_main_v13 (idx_main_v14 (ix3 b t l)) = ix2 b t := funext fun a => Fin.ext (by
    match a with | ⟨0, _⟩ => rfl | ⟨1, _⟩ => rfl)
  rw [e, mass_apply, weight_apply]
  rfl

/-- The result, at (b, t, d). -/
theorem out_apply (b : Fin 16) (t d : Fin 1024) :
    val_main_v16 (F := Ideal) x0 x1 x2 x3 (ix3 b t d)
      = outRow (rowOf x0 b t) (matOf x2) (vecOf x3) (slabOf x1 b) (slabOf x1 b) d := by
  rw [val_main_v16_apply]
  unfold outRow
  refine Finset.sum_congr rfl fun k _ => ?_
  have e0 : lidx_main_v16 (ix3 b t d) k = ix3 b t k := funext fun a => Fin.ext (by
    match a with | ⟨0, _⟩ => rfl | ⟨1, _⟩ => rfl | ⟨2, _⟩ => rfl)
  have e1 : ridx_main_v16 (ix3 b t d) k = ix3 b k d := funext fun a => Fin.ext (by
    match a with | ⟨0, _⟩ => rfl | ⟨1, _⟩ => rfl | ⟨2, _⟩ => rfl)
  rw [e0, e1, attn_apply]

/-- The reference's result array is `attend` of its four arguments. -/
theorem result_eq : val_main_v16 (F := Ideal) x0 x1 x2 x3 = attend x0 x1 x2 x3 := by
  funext i
  obtain ⟨b, t, d, rfl⟩ : ∃ (b : Fin 16) (t d : Fin 1024), i = ix3 b t d := ⟨i 0, i 1, i 2, eq_ix3 i⟩
  rw [out_apply, attend_ix3]

end Cert.Attn.Ref

end
-- ==== Proof.LibKeepdims.lean ====
/-
  A row statistic kept as a column, and a [1, 1, a, b] block seen as a matrix.

  A kernel that works on one [a, b] tile of a [1, 1, a, b] block drops the two leading unit axes on the way in and
  puts them back on the way out; a per-row statistic kept with a trailing unit axis ([a, 1]) is spread along the
  rows to [a, b] by a broadcast; and a sum over the last axis of an [a, b] array, read at row r, is the sum of that
  row's entries.  Each is read here at explicit coordinates.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An [a, 1] column spread along the rows to [a, b], read at (p, c): the column's entry p. -/
theorem column_broadcast_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1, a, b] block seen as an [a, b] matrix, read at (i, j): the block's entry (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix put back as a [1, 1, a, b] block, read at (u, v, i, j): the matrix's entry (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- Over the extended reals, the sum over the last axis of an [a, b] array, read at row r, is the sum over the
    row's b entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c
  apply Fin.ext
  match c with
  | ⟨0, _⟩ => rfl
  | ⟨1, _⟩ => rfl

end Cert.Keepdims
-- ==== Proof.LibColumns.lean ====
/-
  Columns of a rank-two array, as vectors.

  A program that works on an [n, w] array column by column cuts column `k` out as an [n, 1] slice and flattens it
  to a vector of `n` entries, and sets a computed vector of `n` entries up again as an [n, 1] column before putting
  it in its place. Read at a row `r`, the first is the array's entry (r, k) and the second is the vector's entry
  `r`: the row-major position of (r, 0) among [n, 1] is `r`, the position of `r` among [n].
-/
import Idealize.ShloMosaic.Lib.Pipeline.Value
import Idealize.ShloMosaic.Lib.ValueIdx

namespace Cert.TriInv

open Idealize.ShloMosaic Idealize.ShloMosaic.ValueIdx

variable {α : Type}

/-- Column `k` of an [n, w] array, cut out as an [n, 1] slice and flattened, read at row `r`: the entry (r, k). -/
theorem column_apply (n w k : Nat) (hk : k < w) (x : (⟨2, ![n, w]⟩ : Shape).Idx → α)
    (hs : (⟨2, ![n, w]⟩ : Shape).Slices ![0, k] ⟨2, ![n, 1]⟩) (hc : (⟨2, ![n, 1]⟩ : Shape).ShapeCasts ⟨1, ![n]⟩)
    (r : Fin n) :
    shapeCast ⟨1, ![n]⟩ (extractStridedSlice ⟨2, ![n, 1]⟩ ![0, k] x hs) hc (ix1 r) = x (ix2 r ⟨k, hk⟩) := by
  refine (shapeCast_apply _ hc (ix1 r) (ix2 r (0 : Fin 1)) ?_).trans ?_
  · rw [Shape.rowMajor_val_two, Shape.rowMajor_val_one]
    show r.val * 1 + 0 = r.val
    omega
  · refine extractStridedSlice_apply ![0, k] x hs (ix2 r (0 : Fin 1)) (ix2 r ⟨k, hk⟩) fun a => ?_
    match a with
    | ⟨0, _⟩ => show r.val = 0 + r.val; omega
    | ⟨1, _⟩ => show k = k + 0; omega

/-- A vector of `n` entries set up as an [n, 1] column, read at (r, 0): the vector's entry `r`. -/
theorem asColumn_apply (n : Nat) (w : (⟨1, ![n]⟩ : Shape).Idx → α)
    (hc : (⟨1, ![n]⟩ : Shape).ShapeCasts ⟨2, ![n, 1]⟩) (r : Fin n) (z : Fin 1) :
    shapeCast ⟨2, ![n, 1]⟩ w hc (ix2 r z) = w (ix1 r) := by
  refine shapeCast_apply w hc (ix2 r z) (ix1 r) ?_
  rw [Shape.rowMajor_val_two, Shape.rowMajor_val_one]
  have hz : z.val < 1 := z.isLt
  show r.val = r.val * 1 + z.val
  omega

end Cert.TriInv
-- ==== Proof.Payload.lean ====
/-
  What the kernel's body stores, read at an index.

  At one grid point the body holds a [1, 256, 1024] block of text rows, the batch's [1, 1024, 1024] local features twice
  (once as they are, once narrowed to bf16 — the same numbers over the extended reals), the [1024, 1024] weight and the
  [1024] bias.  Its one store is computed in seven stages, each a matrix product, a row reduction or a pointwise
  operation: the projection with bias, the logits, the row maxima, the exponentials of the shifted logits, their row
  sums, the quotients, and the product with the local features.  Read at row `r` each stage is the matching stage of the
  row specification for the text row `r` of the block; so the stored block at (·, r, c) is `outRow` of that row.

  The two matrix products contract the second axis of the left operand with the second (`Dnt`: `a · wᵀ`) or the first
  (`Dnn`: `a · v`) axis of the right operand; a product into a zero accumulator is the plain sum over the contracted
  coordinate.
-/
import proofs.«139368_j42391327212017_2_alg».proof.Proof.Gen.KernelIdeal.Skeleton
import proofs.«139368_j42391327212017_2_alg».proof.Proof.RowSpec
import proofs.«139368_j42391327212017_2_alg».proof.Proof.LibKeepdims
import proofs.«139368_j42391327212017_2_alg».proof.Proof.LibColumns
import proofs.«139368_j42391327212017_2_alg».proof.Proof.LibRowMax
import Idealize.ShloMosaic.Lib.ValueLayout
import Idealize.ShloMosaic.Lib.ValueIdx
import Idealize.ShloMosaic.PureOps.Ideal.Laws

noncomputable section

namespace Cert.Attn.Kern

open Cert.KernelIdeal Cert.KernelIdeal.Gen Idealize.ShloMosaic Idealize.ShloMosaic.ValueIdx
open Cert.Attn

/-- The product `a · wᵀ`: both operands contract their second axis. -/
abbrev Dnt : DotDims S256x1024 S1024x1024 S256x1024 := dot_S256x1024_S1024x1024_S256x1024_1_1_0_0_n_n
/-- The product `a · v`: the left operand's second axis against the right operand's first. -/
abbrev Dnn : DotDims S256x1024 S1024x1024 S256x1024 := dot_S256x1024_S1024x1024_S256x1024_1_0_0_1_n_n

/-! ## The two matrix products at an index -/

theorem nt_lhs0 (i : S256x1024.Idx) (q : Dnt.contr.Idx) : (Dnt.lhsIdx i q 0).val = (i 0).val := by
  unfold DotDims.lhsIdx
  rw [dif_neg (show ¬(0 : Fin S256x1024.rank) ∈ Dnt.lhsBatch by decide),
    dif_pos (show (0 : Fin S256x1024.rank) ∈ Dnt.lhsNonContracting by decide)]
  rfl

theorem nt_rhs0 (i : S256x1024.Idx) (q : Dnt.contr.Idx) : (Dnt.rhsIdx i q 0).val = (i 1).val := by
  unfold DotDims.rhsIdx
  rw [dif_neg (show ¬(0 : Fin S1024x1024.rank) ∈ Dnt.rhsBatch by decide),
    dif_pos (show (0 : Fin S1024x1024.rank) ∈ Dnt.rhsNonContracting by decide)]
  rfl

/-- `a · wᵀ` into a zero accumulator, at (r, e): the sum over `k` of `a (r, k) · w (e, k)`. -/
theorem matmul_nt_apply {φ₁ φ₂ : FTy} (prec : Option ContractPrecision) (a : FVec Ideal S256x1024 φ₁)
    (w : FVec Ideal S1024x1024 φ₂) (r : Fin 256) (e : Fin 1024) :
    matmul Dnt prec a w (constant (F := Ideal) S256x1024 .f32 0x00000000#32) (ix2 r e)
      = ∑ k : Fin 1024, a (ix2 r k) * w (ix2 e k) := by
  simp only [matmul]
  rw [Ideal.matmul_constant_zero_apply, ← Equiv.sum_comp (contrEquiv1 Dnt 1024 rfl rfl).symm]
  refine Finset.sum_congr rfl fun k _ => ?_
  have hk := contrEquiv1_symm_val Dnt 1024 rfl rfl k
  have el : Dnt.lhsIdx (ix2 r e) ((contrEquiv1 Dnt 1024 rfl rfl).symm k) = ix2 r k := funext fun ax => Fin.ext (by
    match ax with
    | ⟨0, _⟩ => exact nt_lhs0 _ _
    | ⟨1, _⟩ => exact (Dnt.lhsIdx_val_of_single rfl _ _).trans hk)
  have er : Dnt.rhsIdx (ix2 r e) ((contrEquiv1 Dnt 1024 rfl rfl).symm k) = ix2 e k := funext fun ax => Fin.ext (by
    match ax with
    | ⟨0, _⟩ => exact nt_rhs0 _ _
    | ⟨1, _⟩ => exact (Dnt.rhsIdx_val_of_single rfl _ _).trans hk)
  rw [el, er]

theorem nn_lhs0 (i : S256x1024.Idx) (q : Dnn.contr.Idx) : (Dnn.lhsIdx i q 0).val = (i 0).val := by
  unfold DotDims.lhsIdx
  rw [dif_neg (show ¬(0 : Fin S256x1024.rank) ∈ Dnn.lhsBatch by decide),
    dif_pos (show (0 : Fin S256x1024.rank) ∈ Dnn.lhsNonContracting by decide)]
  rfl

theorem nn_rhs1 (i : S256x1024.Idx) (q : Dnn.contr.Idx) : (Dnn.rhsIdx i q 1).val = (i 1).val := by
  unfold DotDims.rhsIdx
  rw [dif_neg (show ¬(1 : Fin S1024x1024.rank) ∈ Dnn.rhsBatch by decide),
    dif_pos (show (1 : Fin S1024x1024.rank) ∈ Dnn.rhsNonContracting by decide)]
  rfl

/-- `a · v` into a zero accumulator, at (r, c): the sum over `k` of `a (r, k) · v (k, c)`. -/
theorem matmul_nn_apply {φ₁ φ₂ : FTy} (prec : Option ContractPrecision) (a : FVec Ideal S256x1024 φ₁)
    (v : FVec Ideal S1024x1024 φ₂) (r : Fin 256) (c : Fin 1024) :
    matmul Dnn prec a v (constant (F := Ideal) S256x1024 .f32 0x00000000#32) (ix2 r c)
      = ∑ k : Fin 1024, a (ix2 r k) * v (ix2 k c) := by
  simp only [matmul]
  rw [Ideal.matmul_constant_zero_apply, ← Equiv.sum_comp (contrEquiv1 Dnn 1024 rfl rfl).symm]
  refine Finset.sum_congr rfl fun k _ => ?_
  have hk := contrEquiv1_symm_val Dnn 1024 rfl rfl k
  have el : Dnn.lhsIdx (ix2 r c) ((contrEquiv1 Dnn 1024 rfl rfl).symm k) = ix2 r k := funext fun ax => Fin.ext (by
    match ax with
    | ⟨0, _⟩ => exact nn_lhs0 _ _
    | ⟨1, _⟩ => exact (Dnn.lhsIdx_val_of_single rfl _ _).trans hk)
  have er : Dnn.rhsIdx (ix2 r c) ((contrEquiv1 Dnn 1024 rfl rfl).symm k) = ix2 k c := funext fun ax => Fin.ext (by
    match ax with
    | ⟨0, _⟩ => exact (Dnn.rhsIdx_val_of_single rfl _ _).trans hk
    | ⟨1, _⟩ => exact nn_rhs1 _ _)
  rw [el, er]

/-! ## The body's stages -/

variable (v0 : FVec Ideal S1x256x1024 .f32) (v2 : FVec Ideal S1x1024x1024 .f32) (v4 : FVec Ideal S1x1024x1024 .bf16)
  (v6 : FVec Ideal S1024x1024 .f32) (v7 : FVec Ideal S1024 .f32)

/-- The block's text rows through the linear layer. -/
def projBlk : FVec Ideal S256x1024 .f32 :=
  addf (matmul Dnt (some .fp32) (shapeCast S256x1024 v0 shapeCasts_S1x256x1024_S256x1024 : FVec Ideal S256x1024 .f32) v6
      (constant S256x1024 .f32 0x00000000#32))
    (broadcastTo S256x1024 (shapeCast S1x1024 v7 shapeCasts_S1024_S1x1024 : FVec Ideal S1x1024 .f32) broadcasts_S1x1024_S256x1024)

/-- The block's logits against the batch's keys. -/
def scoreBlk : FVec Ideal S256x1024 .f32 :=
  matmul Dnt (some .fp32) (projBlk v0 v6 v7)
    (shapeCast S1024x1024 v2 shapeCasts_S1x1024x1024_S1024x1024 : FVec Ideal S1024x1024 .f32)
    (constant S256x1024 .f32 0x00000000#32)

/-- Each row's largest logit. -/
def peakBlk : FVec Ideal S256 .f32 :=
  multiReduction .maximumf [1] S256 (scoreBlk v0 v2 v6 v7) 0xFF800000#32 reduces_S256x1024_S256 (.inl rfl) rfl

/-- The exponentials of the logits shifted by their row's maximum. -/
def weightBlk : FVec Ideal S256x1024 .f32 :=
  exp (subf (scoreBlk v0 v2 v6 v7)
    (broadcastTo S256x1024 (shapeCast S256x1 (peakBlk v0 v2 v6 v7) shapeCasts_S256_S256x1 : FVec Ideal S256x1 .f32)
      broadcasts_S256x1_S256x1024))

/-- Each row's sum of weights. -/
def massBlk : FVec Ideal S256 .f32 :=
  multiReduction .add [1] S256 (weightBlk v0 v2 v6 v7) 0x00000000#32 reduces_S256x1024_S256 (.inl rfl) rfl

/-- The softmax. -/
def attnBlk : FVec Ideal S256x1024 .f32 :=
  divf (weightBlk v0 v2 v6 v7)
    (broadcastTo S256x1024 (shapeCast S256x1 (massBlk v0 v2 v6 v7) shapeCasts_S256_S256x1 : FVec Ideal S256x1 .f32)
      broadcasts_S256x1_S256x1024)

/-- The stored block. -/
def outBlk : FVec Ideal S1x256x1024 .f32 :=
  shapeCast S1x256x1024
    (matmul Dnn none (truncf .bf16 (attnBlk v0 v2 v6 v7) bitsLt_bf16_f32)
      (shapeCast S1024x1024 v4 shapeCasts_S1x1024x1024_S1024x1024 : FVec Ideal S1024x1024 .bf16)
      (constant S256x1024 .f32 0x00000000#32))
    shapeCasts_S256x1024_S1x256x1024

/-- The body's payload is these stages composed. -/
theorem pay_eq_outBlk : k0_pay1 (F := Ideal) v0 v2 v4 v6 v7 = outBlk v0 v2 v4 v6 v7 := rfl

/-! ## Each stage at a row -/

theorem projBlk_apply (r : Fin 256) (e : Fin 1024) :
    projBlk v0 v6 v7 (ix2 r e) = projRow (rowOf v0 0 r) (matOf v6) (vecOf v7) e := by
  unfold projBlk projRow
  rw [addf_apply, matmul_nt_apply, broadcastTo_1b_ab_apply, shapeCast_a_1a_apply]
  refine congrArg (· + v7 (ix1 e)) (Finset.sum_congr rfl fun k _ => ?_)
  rw [shapeCast_1ab_ab_apply]

theorem scoreBlk_apply (r : Fin 256) (l : Fin 1024) :
    scoreBlk v0 v2 v6 v7 (ix2 r l) = scoreRow (rowOf v0 0 r) (matOf v6) (vecOf v7) (slabOf v2 0) l := by
  unfold scoreBlk scoreRow
  rw [matmul_nt_apply]
  refine Finset.sum_congr rfl fun k _ => ?_
  rw [projBlk_apply, shapeCast_1ab_ab_apply]

theorem peakBlk_apply (r : Fin 256) :
    peakBlk v0 v2 v6 v7 (ix1 r) = peak (rowOf v0 0 r) (matOf v6) (vecOf v7) (slabOf v2 0) := by
  unfold peakBlk peak
  refine (Cert.RowMax.rowMax_apply (scoreBlk v0 v2 v6 v7) 0xFF800000#32 reduces_S256x1024_S256 (.inl rfl) rfl r).trans ?_
  exact congrArg (fun f => Finset.fold max (Ideal.ofBits .f32 0xFF800000#32) f (Finset.univ : Finset (Fin 1024)))
    (funext fun k => scoreBlk_apply v0 v2 v6 v7 r k)

theorem weightBlk_apply (r : Fin 256) (l : Fin 1024) :
    weightBlk v0 v2 v6 v7 (ix2 r l) = weightRow (rowOf v0 0 r) (matOf v6) (vecOf v7) (slabOf v2 0) l := by
  unfold weightBlk weightRow
  show Ideal.exp (scoreBlk v0 v2 v6 v7 (ix2 r l) - broadcastTo S256x1024 _ broadcasts_S256x1_S256x1024 (ix2 r l)) = _
  rw [Cert.Keepdims.column_broadcast_apply, Cert.TriInv.asColumn_apply, peakBlk_apply, scoreBlk_apply]

theorem massBlk_apply (r : Fin 256) :
    massBlk v0 v2 v6 v7 (ix1 r) = massRow (rowOf v0 0 r) (matOf v6) (vecOf v7) (slabOf v2 0) := by
  unfold massBlk massRow
  refine (Cert.Keepdims.rowSum_apply (weightBlk v0 v2 v6 v7) 0x00000000#32 reduces_S256x1024_S256 (.inl rfl) rfl r).trans ?_
  exact Finset.sum_congr rfl fun k _ => weightBlk_apply v0 v2 v6 v7 r k

theorem attnBlk_apply (r : Fin 256) (l : Fin 1024) :
    attnBlk v0 v2 v6 v7 (ix2 r l) = attnRow (rowOf v0 0 r) (matOf v6) (vecOf v7) (slabOf v2 0) l := by
  unfold attnBlk attnRow
  rw [divf_apply, Cert.Keepdims.column_broadcast_apply, Cert.TriInv.asColumn_apply, massBlk_apply, weightBlk_apply]

theorem outBlk_apply (u : Fin 1) (r : Fin 256) (c : Fin 1024) :
    outBlk v0 v2 v4 v6 v7 (ix3 u r c)
      = outRow (rowOf v0 0 r) (matOf v6) (vecOf v7) (slabOf v2 0) (slabOf v4 0) c := by
  unfold outBlk outRow
  rw [shapeCast_ab_1ab_apply, matmul_nn_apply]
  refine Finset.sum_congr rfl fun k _ => ?_
  rw [truncf_apply, attnBlk_apply, shapeCast_1ab_ab_apply]

/-- The stored block at (·, r, c): row `r` of the text block attends over the batch's local features. -/
theorem pay_apply (u : Fin 1) (r : Fin 256) (c : Fin 1024) :
    k0_pay1 (F := Ideal) v0 v2 v4 v6 v7 (ix3 u r c)
      = outRow (rowOf v0 0 r) (matOf v6) (vecOf v7) (slabOf v2 0) (slabOf v4 0) c :=
  (congrFun (pay_eq_outBlk v0 v2 v4 v6 v7) _).trans (outBlk_apply v0 v2 v4 v6 v7 u r c)

end Cert.Attn.Kern

end
-- ==== Proof.KernelValue.lean ====
/-
  From the kernel's blocks to its result array.

  The grid has 16 × 4 points; point (b, s) stages rows 256 s … 256 s + 255 of batch `b`'s text, the whole of batch `b`'s
  local features (as they are, and narrowed to bf16 by the one host operation before the call — the same numbers over
  the extended reals), the whole weight and the whole bias, and writes back rows 256 s … 256 s + 255 of batch `b`'s
  result.  Row `r` of what it writes is `outRow` of text row 256 s + r of batch `b` against batch `b`'s local features:
  that is `attend` at (b, 256 s + r, ·).  The 64 blocks written back tile the result array, so the array ends at
  `attend` of the four arguments.
-/
import proofs.«139368_j42391327212017_2_alg».proof.Proof.Gen.KernelIdeal.Value
import proofs.«139368_j42391327212017_2_alg».proof.Proof.Payload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.Attn.KernRun

open Cert.KernelIdeal Cert.KernelIdeal.Gen Cert.KernelIdeal.Value Idealize.ShloMosaic.ValueIdx Idealize.ShloMosaic.StableHlo
open Cert.Attn Cert.Attn.Kern

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What the body leaves in the output's staging buffer is its one store's payload of the whole input buffers. -/
theorem out0_5_eq (x0 : Vec Ideal S1x256x1024 .f32) (x1 : Vec Ideal S1x1024x1024 .f32) (x2 : Vec Ideal S1x1024x1024 .bf16)
    (x3 : Vec Ideal S1024x1024 .f32) (x4 : Vec Ideal S1024 .f32) :
    out0_5 (F := Ideal) x0 x1 x2 x3 x4 = k0_pay1 x0 x1 x2 x3 x4 := by
  unfold out0_5
  rw [View.canon_unit_zero hz3]
  simp only [View.ld_unit_zero (S := S1x256x1024) hz3, View.ld_unit_zero (S := S1x1024x1024) hz3,
    View.ld_unit_zero (S := S1024x1024) hz2, View.ld_unit_zero (S := S1024) hz1]

/-- The result the array ends at: `attend` of the four argument arrays. -/
abbrev result (c : Dev nD) : Buf (Elt Ideal) ((c : Thread nD τ).loc main_v1) :=
  attend (m ((c : Thread nD τ).loc main_arg0)) (m ((c : Thread nD τ).loc main_arg1))
    (m ((c : Thread nD τ).loc main_arg2)) (m ((c : Thread nD τ).loc main_arg3))

/-- The narrowed copy of the local features the region finds is, over the extended reals, the local features. -/
theorem V_main_v0 (c : Dev nD) :
    (V m c main_v0 : S16x1024x1024.Idx → EReal) = m ((c : Thread nD τ).loc main_arg1) := by
  have e : (V m c main_v0 : S16x1024x1024.Idx → EReal)
      = (truncf (F := Ideal) .bf16 (m ((c : Thread nD τ).loc main_arg1) : FVec Ideal S16x1024x1024 .f32) bitsLt_bf16_f32 :
          FVec Ideal S16x1024x1024 .bf16) := by
    dsimp only [Gen.V, Gen.hostOps0]; after_results
  rw [e]; rfl

/-- The printed index maps, decided over the 64 points: the text and the result move together; the local features
    follow the batch; the weight and the bias stay. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 3) ≤ 15 ∧ win0_5.index t (1 : Fin 3) ≤ 3 ∧ win0_5.index t (2 : Fin 3) = 0 :=
  (by decide +kernel : ∀ t : Fin grid0.N, _)

/-- Every (batch, row tile) is some point's. -/
theorem idx_onto : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-! ## Each input block, read where the point's result rows say -/

/-- Row `r` of the text block is text row (B, T) when the block sits at batch `B` and `T` is the row's place. -/
theorem text_row (c : Dev nD) (t : Fin cfg0.N) (r : Fin 256) (B : Fin 16) (T : Fin 1024)
    (h0 : win0_0.index t (0 : Fin 3) = B.val) (h1 : win0_0.index t (1 : Fin 3) * 256 + r.val = T.val)
    (h2 : win0_0.index t (2 : Fin 3) = 0) :
    rowOf (n0 := 1) (n1 := 256) (iblk m c 0 t) 0 r = rowOf (m ((c : Thread nD τ).loc main_arg0)) B T := by
  funext d
  show V m c main_arg0 (((cfg0.win 0).blk t).view.emb (ix3 (0 : Fin 1) r d)) = m ((c : Thread nD τ).loc main_arg0) (ix3 B T d)
  rw [V_main_arg0]
  refine congrArg (m ((c : Thread nD τ).loc main_arg0)) (funext fun a => Fin.ext ?_)
  match a with
  | ⟨0, _⟩ => show win0_0.index t (0 : Fin 3) * 1 + 1 * 0 = B.val; omega
  | ⟨1, _⟩ => show win0_0.index t (1 : Fin 3) * 256 + 1 * r.val = T.val; omega
  | ⟨2, _⟩ => show win0_0.index t (2 : Fin 3) * 1024 + 1 * d.val = d.val; omega

/-- The local-features block is batch `B`'s slab. -/
theorem local_slab (c : Dev nD) (t : Fin cfg0.N) (B : Fin 16)
    (h0 : win0_1.index t (0 : Fin 3) = B.val) (h1 : win0_1.index t (1 : Fin 3) = 0) (h2 : win0_1.index t (2 : Fin 3) = 0) :
    slabOf (n0 := 1) (iblk m c 1 t) 0 = slabOf (m ((c : Thread nD τ).loc main_arg1)) B := by
  funext l d
  show V m c main_arg1 (((cfg0.win 1).blk t).view.emb (ix3 (0 : Fin 1) l d)) = m ((c : Thread nD τ).loc main_arg1) (ix3 B l d)
  rw [V_main_arg1]
  refine congrArg (m ((c : Thread nD τ).loc main_arg1)) (funext fun a => Fin.ext ?_)
  match a with
  | ⟨0, _⟩ => show win0_1.index t (0 : Fin 3) * 1 + 1 * 0 = B.val; omega
  | ⟨1, _⟩ => show win0_1.index t (1 : Fin 3) * 1024 + 1 * l.val = l.val; omega
  | ⟨2, _⟩ => show win0_1.index t (2 : Fin 3) * 1024 + 1 * d.val = d.val; omega

/-- The narrowed local-features block is batch `B`'s slab too. -/
theorem narrowed_slab (c : Dev nD) (t : Fin cfg0.N) (B : Fin 16)
    (h0 : win0_2.index t (0 : Fin 3) = B.val) (h1 : win0_2.index t (1 : Fin 3) = 0) (h2 : win0_2.index t (2 : Fin 3) = 0) :
    slabOf (n0 := 1) (iblk m c 2 t) 0 = slabOf (m ((c : Thread nD τ).loc main_arg1)) B := by
  funext l d
  show (V m c main_v0 : S16x1024x1024.Idx → EReal) (((cfg0.win 2).blk t).view.emb (ix3 (0 : Fin 1) l d))
    = m ((c : Thread nD τ).loc main_arg1) (ix3 B l d)
  rw [V_main_v0]
  refine congrArg (m ((c : Thread nD τ).loc main_arg1)) (funext fun a => Fin.ext ?_)
  match a with
  | ⟨0, _⟩ => show win0_2.index t (0 : Fin 3) * 1 + 1 * 0 = B.val; omega
  | ⟨1, _⟩ => show win0_2.index t (1 : Fin 3) * 1024 + 1 * l.val = l.val; omega
  | ⟨2, _⟩ => show win0_2.index t (2 : Fin 3) * 1024 + 1 * d.val = d.val; omega

/-- The weight block is the weight. -/
theorem weight_mat (c : Dev nD) (t : Fin cfg0.N)
    (h0 : win0_3.index t (0 : Fin 2) = 0) (h1 : win0_3.index t (1 : Fin 2) = 0) :
    matOf (iblk m c 3 t) = matOf (m ((c : Thread nD τ).loc main_arg2)) := by
  funext e d
  show V m c main_arg2 (((cfg0.win 3).blk t).view.emb (ix2 e d)) = m ((c : Thread nD τ).loc main_arg2) (ix2 e d)
  rw [V_main_arg2]
  refine congrArg (m ((c : Thread nD τ).loc main_arg2)) (funext fun a => Fin.ext ?_)
  match a with
  | ⟨0, _⟩ => show win0_3.index t (0 : Fin 2) * 1024 + 1 * e.val = e.val; omega
  | ⟨1, _⟩ => show win0_3.index t (1 : Fin 2) * 1024 + 1 * d.val = d.val; omega

/-- The bias block is the bias. -/
theorem bias_vec (c : Dev nD) (t : Fin cfg0.N) (h0 : win0_4.index t (0 : Fin 1) = 0) :
    vecOf (iblk m c 4 t) = vecOf (m ((c : Thread nD τ).loc main_arg3)) := by
  funext e
  show V m c main_arg3 (((cfg0.win 4).blk t).view.emb (ix1 e)) = m ((c : Thread nD τ).loc main_arg3) (ix1 e)
  rw [V_main_arg3]
  refine congrArg (m ((c : Thread nD τ).loc main_arg3)) (funext fun a => Fin.ext ?_)
  match a with
  | ⟨0, _⟩ => show win0_4.index t (0 : Fin 1) * 1024 + 1 * e.val = e.val; omega

/-- `outRow` of equal rows, matrices and vectors. -/
theorem outRow_congr {q q' : Fin 1024 → EReal} {W W' : Fin 1024 → Fin 1024 → EReal} {β β' : Fin 1024 → EReal}
    {K K' V' V'' : Fin 1024 → Fin 1024 → EReal} (hq : q = q') (hW : W = W') (hβ : β = β') (hK : K = K') (hV : V' = V'')
    (d : Fin 1024) : outRow q W β K V' d = outRow q' W' β' K' V'' d := by
  subst hq hW hβ hK hV; rfl

/-! ## What a point writes back, the cover, the run -/

/-- What point `t` writes back is its block of `attend` of the argument arrays. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5, out0_5_eq (iblk m c 0 t) (iblk m c 1 t) (iblk m c 2 t) (iblk m c 3 t) (iblk m c 4 t)]
  funext j
  obtain ⟨u, r, cc, rfl⟩ : ∃ (u : Fin 1) (r : Fin 256) (cc : Fin 1024), j = ix3 u r cc := ⟨j 0, j 1, j 2, eq_ix3 j⟩
  obtain ⟨f00, f01, f02, f10, f11, f12, f20, f21, f22, f30, f31, f40, b0, b1, f52⟩ := idx_facts t
  have hu : u.val = 0 := by have := u.isLt; omega
  have hr : r.val < 256 := r.isLt
  have hB : win0_5.index t (0 : Fin 3) < 16 := by omega
  have hT : win0_5.index t (1 : Fin 3) * 256 + r.val < 1024 := by omega
  have hE : ((cfg0.win 5).blk t).view.emb (ix3 u r cc)
      = ix3 (⟨win0_5.index t (0 : Fin 3), hB⟩ : Fin 16) (⟨win0_5.index t (1 : Fin 3) * 256 + r.val, hT⟩ : Fin 1024) cc := by
    funext a; apply Fin.ext
    match a with
    | ⟨0, _⟩ => show win0_5.index t (0 : Fin 3) * 1 + 1 * u.val = win0_5.index t (0 : Fin 3); omega
    | ⟨1, _⟩ => show win0_5.index t (1 : Fin 3) * 256 + 1 * r.val = win0_5.index t (1 : Fin 3) * 256 + r.val; omega
    | ⟨2, _⟩ => show win0_5.index t (2 : Fin 3) * 1024 + 1 * cc.val = cc.val; omega
  show k0_pay1 (F := Ideal) (iblk m c 0 t) (iblk m c 1 t) (iblk m c 2 t) (iblk m c 3 t) (iblk m c 4 t) (ix3 u r cc)
    = result m c (((cfg0.win 5).blk t).view.emb (ix3 u r cc))
  rw [hE]
  refine (pay_apply (iblk m c 0 t) (iblk m c 1 t) (iblk m c 2 t) (iblk m c 3 t) (iblk m c 4 t) u r cc).trans ?_
  exact outRow_congr (text_row m c t r _ _ f00 (by show _ = win0_5.index t (1 : Fin 3) * 256 + r.val; omega) f02)
    (weight_mat m c t f30 f31) (bias_vec m c t f40) (local_slab m c t _ f10 f11 f12) (narrowed_slab m c t _ f20 f21 f22) cc

/-- An index of the result is in point `t`'s block iff each coordinate is in the block's range on its axis. -/
theorem mem_blk (t : Fin cfg0.N) (i : S16x1024x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v1).slice (win0_5.rect t)).set ↔ _
  rw [View.set_slice_whole, Rect.mem_set_unit]
  exact Iff.rfl

/-- The 64 blocks cover the result: row `k` of batch `b` is in the block of point (b, k / 256). -/
theorem cover (i : S16x1024x1024.Idx) :
    ∃ t : Fin cfg0.N, (cfg0.win 5).flush t = true ∧ i ∈ ((cfg0.win 5).blk t).view.set := by
  have hi0 : (i 0).val < 16 := (i 0).isLt
  have hi1 : (i 1).val < 1024 := (i 1).isLt
  have hi2 : (i 2).val < 1024 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- The result array after the run. -/
theorem final (c : Dev nD) : (dats m 0 c).arrAt 5 cfg0.N = result m c :=
  (dats m 0 c).arrAt_eq_of_cover 5 (result m c) (fun t _ => flushed_eq m c t) cover

/-- The kernel's run: the result array ends at `attend` of the arguments, which end unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Attn.KernRun

end
-- ==== Proof.lean ====
/-
  Bilinear cross-attention: a fused kernel against jnp's einsum · softmax · einsum.

  Both programs compute, for every batch `b`, query row `t` and feature `d`,

      out[b, t, d] = ∑ₗ softmax_l (∑ₑ (∑ₖ text[b, t, k] · W[e, k] + β[e]) · local[b, l, e]) · local[b, l, d],

  with the softmax in its stable form: the row's largest logit, a fold of `max` from -∞, is subtracted before the
  exponential, and the weights are divided by their sum.  The kernel tiles the query rows 256 at a time, keeps the batch's
  local features resident, narrows the softmax and a copy of the local features to bf16 before the last product, and
  takes its maxima and sums lane-wise; the reference works on whole arrays and takes one more maximum with -∞.  Over the
  extended reals a change of format is the identity, a matrix product into a zero accumulator is the sum over the
  contracted coordinate, a sum or a maximum over an axis does not depend on the order, and `max (-∞) a = a`: so both
  programs are one function, `Cert.Attn.attend` (Proof/RowSpec.lean), index by index — no law that needs finiteness is
  used, and the precondition is never opened.

  Proof/RefValue.lean reads the reference's run at an index; Proof/Payload.lean reads the kernel body's store at an
  index; Proof/KernelValue.lean goes from the 64 written blocks to the result array.  The three frames are the
  programs' runs with the result dropped; the idealization rewrote nothing.
-/
import proofs.«139368_j42391327212017_2_alg».proof.Defs
import proofs.«139368_j42391327212017_2_alg».proof.Proof.Gen.Kernel
import proofs.«139368_j42391327212017_2_alg».proof.Proof.Gen.Kernel.Skeleton
import proofs.«139368_j42391327212017_2_alg».proof.Proof.Gen.Kernel.Launch
import proofs.«139368_j42391327212017_2_alg».proof.Proof.Gen.Kernel.Points
import proofs.«139368_j42391327212017_2_alg».proof.Proof.Gen.Kernel.Frame
import proofs.«139368_j42391327212017_2_alg».proof.Proof.Gen.KernelIdeal
import proofs.«139368_j42391327212017_2_alg».proof.Proof.Gen.KernelIdeal.Skeleton
import proofs.«139368_j42391327212017_2_alg».proof.Proof.Gen.KernelIdeal.Launch
import proofs.«139368_j42391327212017_2_alg».proof.Proof.Gen.KernelIdeal.Points
import proofs.«139368_j42391327212017_2_alg».proof.Proof.Gen.KernelIdeal.Frame
import proofs.«139368_j42391327212017_2_alg».proof.Proof.Gen.ReferenceIdeal
import proofs.«139368_j42391327212017_2_alg».proof.Proof.Gen.Pre_finite_inputs
import proofs.«139368_j42391327212017_2_alg».proof.Proof.Gen.KernelIdeal.Value
import proofs.«139368_j42391327212017_2_alg».proof.Proof.Gen.ReferenceIdeal.Run
import proofs.«139368_j42391327212017_2_alg».proof.Proof.Gen.ReferenceIdeal.Read
import proofs.«139368_j42391327212017_2_alg».proof.Proof.RefValue
import proofs.«139368_j42391327212017_2_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the result array at `attend` of them. -/
theorem algebraic : Cert.algebraic_KernelIdeal_ReferenceIdeal := by
  intro m ρ m' ρ' _ hagree
  refine ⟨fun c => Cert.Attn.KernRun.result m c, Cert.Attn.KernRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Attn.Ref.result_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
